-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096x1 : Shape := ⟨2, ![4096, 1]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S4096x1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  main_v23

def fn {F : FTy → Type} [FloatOps F] (main_arg0 : FVec F S4096x16384 .f32) (main_arg1 : FVec F S4096x1 .f32) (main_arg2 : FVec F S4096x1 .f32) (main_arg3 : FVec F S4096x1 .f32) (main_arg4 : FVec F S4096x1 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S4096x16384 : Shape := ⟨2, ![4096, 16384]⟩
abbrev S4096x1 : Shape := ⟨2, ![4096, 1]⟩
abbrev S64x16384 : Shape := ⟨2, ![64, 16384]⟩
abbrev S64x1 : Shape := ⟨2, ![64, 1]⟩
abbrev S64 : Shape := ⟨1, ![64]⟩

abbrev nBuf : Space → Nat
  | .hbm => 7
  | .vmem => 14
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .local _ .vmem, ⟨0, _⟩ => ⟨S64x16384, .f32⟩
  | .local _ .vmem, ⟨1, _⟩ => ⟨S64x16384, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S64x1, .f32⟩
  | .local _ .vmem, ⟨13, _⟩ => ⟨S64x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S64x16384_S64x16384_0_0 : ∀ a, (![0, 0] : Fin 2 → Nat) a + S64x16384.size a ≤ S64x16384.size a
  h_S64x16384 : 0 < S64x16384.numel
  inb_S64x1_S64x1_0_0 : ∀ a, (![0, 0] : Fin 2 → Nat) a + S64x1.size a ≤ S64x1.size a
  h_S64x1 : 0 < S64x1.numel
  broadcasts_S64x1_S64x16384 : S64x1.Broadcasts S64x16384
  reduces_S64x16384_S64 : S64x16384.Reduces [1] S64
  shapeCasts_S64_S64x1 : S64.ShapeCasts S64x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S4096x16384.size a
  hwx0_0 : ∀ i : grid0.Coords, EltTy.bits .f32 = 32 ∨ (Rect.block (s := S4096x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S4096x1.size a
  hwx0_4 : ∀ i : grid0.Coords, EltTy.bits .f32 = 32 ∨ (Rect.block (s := S4096x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S4096x1.size a
  hwx0_6 : ∀ i : grid0.Coords, EltTy.bits .f32 = 32 ∨ (Rect.block (s := S4096x1) S64x1.size (cc0_transform_6 i) (hinb0_6 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S4096x1 : Shape := ⟨2, ![4096, 1]⟩
abbrev S_ : Shape := ⟨0, ![]⟩
abbrev S4096 : Shape := ⟨1, ![4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x16384, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x16384, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x16384, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)

variable [Facts₀]

class Facts : Prop extends Facts₀ where

variable [Facts]
-- ==== Proof.RowMoments.lean ====
/-
  The function both programs compute, one row at a time.

  For a row `x : Fin 16384 → EReal` and the row's four scalars `a b μ v`, put `s k = σ (a · x k + b)` with `σ` the
  logistic function, `s' k = s k · (1 − s k)` (the derivative of `σ` at the same point) and `d k = x k · s' k`. With
  `mean f = (∑ k, f k) · 2⁻¹⁴` the mean over the 16384 entries of the row, the two results are

    gradA = 2 · ((mean s − μ) · mean d  + (mean (s·s) − mean s · mean s − v) · (2 · (mean (s·d)  − mean s · mean d)))
    gradB = 2 · ((mean s − μ) · mean s' + (mean (s·s) − mean s · mean s − v) · (2 · (mean (s·s') − mean s · mean s')))

  the gradients in `a` and in `b` of `(mean s − μ)² + (variance of s − v)²`.

  Both programs compute exactly this tree of operations; they differ in three spellings only, which denote the same
  extended reals: the logistic function against `1 / (1 + exp (−z))`, a product with `2⁻¹⁴` against a quotient by
  `16384` (`2⁻¹⁴` is a binary fraction, so its f32 word is exactly `1/16384`), and a sum started at the word `+0.0`
  against a sum with no start value. No law of arithmetic beyond these is used: nothing is distributed or cancelled,
  so the equality holds on every extended real and the inputs' finiteness is not needed.
-/
import Idealize.ShloMosaic.PureOps.Ideal
import Idealize.ShloMosaic.PureOps.Ideal.Laws
import Idealize.ShloMosaic.Lib.ValueIdx

noncomputable section

namespace Cert.RowMoments

open Idealize.ShloMosaic Idealize.ShloMosaic.ValueIdx

/-! ## The three float words the tree spells, and what the other words denote -/

/-- The word of `1.0`. -/
def one : EReal := Ideal.ofBits .f32 0x3F800000#32
/-- The word of `2.0`. -/
def two : EReal := Ideal.ofBits .f32 0x40000000#32
/-- The word of `2⁻¹⁴ = 1/16384`, the reciprocal of a row's length. -/
def invN : EReal := Ideal.ofBits .f32 0x38800000#32

/-- The word of `1.0` denotes `1`. -/
theorem ofBits_one : Ideal.ofBits .f32 0x3F800000#32 = 1 := by
  simp [Ideal.ofBits, Ideal.ieee, -EReal.coe_mul]; norm_num

/-- The word of `16384.0` denotes the real `16384`. -/
theorem ofBits_rowLength : Ideal.ofBits .f32 0x46800000#32 = ((16384 : ℝ) : EReal) := by
  simp [Ideal.ofBits, Ideal.ieee, -EReal.coe_mul]; norm_num

/-- The word of `2⁻¹⁴` denotes the real `1/16384` exactly. -/
theorem ofBits_invRowLength : Ideal.ofBits .f32 0x38800000#32 = ((1 / 16384 : ℝ) : EReal) := by
  simp [Ideal.ofBits, Ideal.ieee, -EReal.coe_mul]; norm_num

/-- A quotient by `16384` is the product with `2⁻¹⁴`, on every extended real. -/
theorem div_rowLength (y : EReal) : Ideal.div y (Ideal.ofBits .f32 0x46800000#32) = y * invN := by
  rw [ofBits_rowLength, invN, ofBits_invRowLength]
  exact Ideal.div_coe (by norm_num) y

/-- `1 / (1 + exp (−z))`, spelt with the word of `1.0`, is the logistic function at `z`. -/
theorem logistic_spelt (z : EReal) :
    Ideal.div (Ideal.ofBits .f32 0x3F800000#32) (Ideal.ofBits .f32 0x3F800000#32 + Ideal.exp (-z)) = Ideal.logistic z := by
  rw [ofBits_one]; rfl

/-! ## One row -/

/-- `s = σ (a · x + b)`. -/
def sg (a b x : EReal) : EReal := Ideal.logistic (a * x + b)
/-- `s' = s · (1 − s)`. -/
def sp (a b x : EReal) : EReal := sg a b x * (one - sg a b x)
/-- `d = x · s'`. -/
def da (a b x : EReal) : EReal := x * sp a b x

/-- The mean of a row: its sum times `2⁻¹⁴`. -/
def mean (f : Fin 16384 → EReal) : EReal := (∑ k : Fin 16384, f k) * invN

/-- A sum started at the word `+0.0` and divided by `16384` is the mean; the summands may be restated term by term. -/
theorem mean_of (f g : Fin 16384 → EReal) (h : ∀ k, f k = g k) :
    Ideal.div (Ideal.ofBits .f32 0x00000000#32 + ∑ k : Fin 16384, f k) (Ideal.ofBits .f32 0x46800000#32) = mean g := by
  rw [Ideal.ofBits_zero_f32, zero_add, div_rowLength, mean, Finset.sum_congr rfl fun k _ => h k]

/-- A sum with no start value, times `2⁻¹⁴`, is the mean; the summands may be restated term by term. -/
theorem mean_of' (f g : Fin 16384 → EReal) (h : ∀ k, f k = g k) :
    (∑ k : Fin 16384, f k) * Ideal.ofBits .f32 0x38800000#32 = mean g := by
  rw [mean, invN, Finset.sum_congr rfl fun k _ => h k]

/-- The gradient in `a`. -/
def gradA (x : Fin 16384 → EReal) (a b μ v : EReal) : EReal :=
  two * ((mean (fun k => sg a b (x k)) - μ) * mean (fun k => da a b (x k))
    + (mean (fun k => sg a b (x k) * sg a b (x k)) - mean (fun k => sg a b (x k)) * mean (fun k => sg a b (x k)) - v)
      * (two * (mean (fun k => sg a b (x k) * da a b (x k)) - mean (fun k => sg a b (x k)) * mean (fun k => da a b (x k)))))

/-- The gradient in `b`. -/
def gradB (x : Fin 16384 → EReal) (a b μ v : EReal) : EReal :=
  two * ((mean (fun k => sg a b (x k)) - μ) * mean (fun k => sp a b (x k))
    + (mean (fun k => sg a b (x k) * sg a b (x k)) - mean (fun k => sg a b (x k)) * mean (fun k => sg a b (x k)) - v)
      * (two * (mean (fun k => sg a b (x k) * sp a b (x k)) - mean (fun k => sg a b (x k)) * mean (fun k => sp a b (x k)))))

/-- `gradA` of equal arguments. -/
theorem gradA_congr {x x' : Fin 16384 → EReal} {a a' b b' μ μ' v v' : EReal} (hx : x = x') (ha : a = a') (hb : b = b')
    (hμ : μ = μ') (hv : v = v') : gradA x a b μ v = gradA x' a' b' μ' v' := by
  subst hx ha hb hμ hv; rfl

/-- `gradB` of equal arguments. -/
theorem gradB_congr {x x' : Fin 16384 → EReal} {a a' b b' μ μ' v v' : EReal} (hx : x = x') (ha : a = a') (hb : b = b')
    (hμ : μ = μ') (hv : v = v') : gradB x a b μ v = gradB x' a' b' μ' v' := by
  subst hx ha hb hμ hv; rfl

/-! ## The whole arrays -/

/-- A `[4096, 16384]` array. -/
abbrev Mat : Type := (⟨2, ![4096, 16384]⟩ : Shape).Idx → EReal
/-- A `[4096, 1]` column. -/
abbrev Col : Type := (⟨2, ![4096, 1]⟩ : Shape).Idx → EReal

/-- The row of a column's index. -/
abbrev row (i : (⟨2, ![4096, 1]⟩ : Shape).Idx) : Fin 4096 := ⟨(i 0).val, (i 0).isLt⟩

/-- Row `r` of the matrix. -/
abbrev rowOf (x : Mat) (r : Fin 4096) : Fin 16384 → EReal := fun k => x (ix2 r k)
/-- Entry `r` of a column. -/
abbrev at0 (a : Col) (r : Fin 4096) : EReal := a (ix2 r (0 : Fin 1))

/-- The first result: entry `(r, 0)` is `gradA` of row `r`. -/
def GA (x : Mat) (a b μ v : Col) : Col := fun i =>
  gradA (rowOf x (row i)) (at0 a (row i)) (at0 b (row i)) (at0 μ (row i)) (at0 v (row i))

/-- The second result: entry `(r, 0)` is `gradB` of row `r`. -/
def GB (x : Mat) (a b μ v : Col) : Col := fun i =>
  gradB (rowOf x (row i)) (at0 a (row i)) (at0 b (row i)) (at0 μ (row i)) (at0 v (row i))

end Cert.RowMoments

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelRows.lean ====
/-
  The kernel's two result arrays are `GA` and `GB` (Proof/RowMoments.lean).

  Grid point `t` works on rows `64 t … 64 t + 63`: it loads those rows of `x` and of the four columns, and stores the two
  `[64, 1]` blocks of results. Entry `(p, 0)` of a stored block depends on row `p` of the loaded blocks only: each of
  its six lane sums is the sum over row `p`, times `2⁻¹⁴` the row's mean, of `s`, `s'`, `d` and their products with
  `s` — the broadcasts of the columns `a` and `b` along the row read the column's entry of row `p` — so the entry is
  `gradA` (`gradB`) of that row. The 64 blocks of 64 rows tile the 4096 rows, so each result array is, row by row,
  `GA` (`GB`) of the argument arrays.
-/
import proofs.«103779_j5420248727614_2_alg».proof.Proof.Gen.KernelIdeal.Value
import proofs.«103779_j5420248727614_2_alg».proof.Proof.RowMoments
import proofs.«103779_j5420248727614_2_alg».proof.Proof.LibColumnLayout
import Idealize.ShloMosaic.PureOps.Ideal.Laws
import Idealize.ShloMosaic.Lib.ValueIdx

noncomputable section

namespace Cert.KernelIdeal.KerRows

open Cert.KernelIdeal Cert.KernelIdeal.Gen Idealize.ShloMosaic Idealize.ShloMosaic.TcCoe Idealize.SL.Sem
open Idealize.ShloMosaic.ValueIdx Cert.RowMoments
open Idealize.ShloMosaic.Pipeline (Dat)

local macro "coords1" : tactic =>
  `(tactic| (funext a; apply Fin.ext; match a with | ⟨0, _⟩ => rfl))
local macro "coords2" : tactic =>
  `(tactic| (funext a; apply Fin.ext; match a with | ⟨0, _⟩ => rfl | ⟨1, _⟩ => rfl))

/-! ## One block: entry `(p, k)` of the pointwise stages, and the means of row `p` -/

section Block

variable (P0 P2 : FVec Ideal S64x1 .f32) (P1 : FVec Ideal S64x16384 .f32)

/-- The block of `s` at `(p, k)`: the two columns are read at row `p`. -/
theorem s_block (p : Fin 64) (k : Fin 16384) :
    (logistic (addf (mulf (broadcastTo S64x16384 P0 broadcasts_S64x1_S64x16384) P1) (broadcastTo S64x16384 P2 broadcasts_S64x1_S64x16384))) (ix2 p k) = sg (P0 (ix2 p (0 : Fin 1))) (P2 (ix2 p (0 : Fin 1))) (P1 (ix2 p k)) := by
  show Ideal.logistic (broadcastTo S64x16384 P0 broadcasts_S64x1_S64x16384 (ix2 p k) * P1 (ix2 p k)
    + broadcastTo S64x16384 P2 broadcasts_S64x1_S64x16384 (ix2 p k)) = _
  rw [ColumnLayout.broadcastTo_a1_ab_apply, ColumnLayout.broadcastTo_a1_ab_apply]
  rfl

/-- The block of `s' = s · (1 − s)` at `(p, k)`. -/
theorem sp_block (p : Fin 64) (k : Fin 16384) :
    (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384))))) (ix2 p k) = sp (P0 (ix2 p (0 : Fin 1))) (P2 (ix2 p (0 : Fin 1))) (P1 (ix2 p k)) := by
  show (logistic (addf (mulf (broadcastTo S64x16384 P0 broadcasts_S64x1_S64x16384) P1) (broadcastTo S64x16384 P2 broadcasts_S64x1_S64x16384))) (ix2 p k) * (Ideal.ofBits .f32 0x3F800000#32 - (logistic (addf (mulf (broadcastTo S64x16384 P0 broadcasts_S64x1_S64x16384) P1) (broadcastTo S64x16384 P2 broadcasts_S64x1_S64x16384))) (ix2 p k)) = _
  rw [s_block]
  rfl

/-- The block of `d = x · s'` at `(p, k)`. -/
theorem d_block (p : Fin 64) (k : Fin 16384) :
    (mulf P1 (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384)))))) (ix2 p k) = da (P0 (ix2 p (0 : Fin 1))) (P2 (ix2 p (0 : Fin 1))) (P1 (ix2 p k)) := by
  show P1 (ix2 p k) * (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384))))) (ix2 p k) = _
  rw [sp_block]
  rfl

/-- The block of `s · s` at `(p, k)`. -/
theorem ss_block (p : Fin 64) (k : Fin 16384) :
    (mulf (logistic (addf (mulf (broadcastTo S64x16384 P0 broadcasts_S64x1_S64x16384) P1) (broadcastTo S64x16384 P2 broadcasts_S64x1_S64x16384))) (logistic (addf (mulf (broadcastTo S64x16384 P0 broadcasts_S64x1_S64x16384) P1) (broadcastTo S64x16384 P2 broadcasts_S64x1_S64x16384)))) (ix2 p k) = sg (P0 (ix2 p (0 : Fin 1))) (P2 (ix2 p (0 : Fin 1))) (P1 (ix2 p k)) * sg (P0 (ix2 p (0 : Fin 1))) (P2 (ix2 p (0 : Fin 1))) (P1 (ix2 p k)) := by
  show (logistic (addf (mulf (broadcastTo S64x16384 P0 broadcasts_S64x1_S64x16384) P1) (broadcastTo S64x16384 P2 broadcasts_S64x1_S64x16384))) (ix2 p k) * (logistic (addf (mulf (broadcastTo S64x16384 P0 broadcasts_S64x1_S64x16384) P1) (broadcastTo S64x16384 P2 broadcasts_S64x1_S64x16384))) (ix2 p k) = _
  rw [s_block]

/-- The block of `s · d` at `(p, k)`. -/
theorem sd_block (p : Fin 64) (k : Fin 16384) :
    (mulf (logistic (addf (mulf (broadcastTo S64x16384 P0 broadcasts_S64x1_S64x16384) P1) (broadcastTo S64x16384 P2 broadcasts_S64x1_S64x16384))) (mulf P1 (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384))))))) (ix2 p k) = sg (P0 (ix2 p (0 : Fin 1))) (P2 (ix2 p (0 : Fin 1))) (P1 (ix2 p k)) * da (P0 (ix2 p (0 : Fin 1))) (P2 (ix2 p (0 : Fin 1))) (P1 (ix2 p k)) := by
  show (logistic (addf (mulf (broadcastTo S64x16384 P0 broadcasts_S64x1_S64x16384) P1) (broadcastTo S64x16384 P2 broadcasts_S64x1_S64x16384))) (ix2 p k) * (mulf P1 (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384)))))) (ix2 p k) = _
  rw [s_block, d_block]

/-- The block of `s · s'` at `(p, k)`. -/
theorem ssp_block (p : Fin 64) (k : Fin 16384) :
    (mulf (logistic (addf (mulf (broadcastTo S64x16384 P0 broadcasts_S64x1_S64x16384) P1) (broadcastTo S64x16384 P2 broadcasts_S64x1_S64x16384))) (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384)))))) (ix2 p k) = sg (P0 (ix2 p (0 : Fin 1))) (P2 (ix2 p (0 : Fin 1))) (P1 (ix2 p k)) * sp (P0 (ix2 p (0 : Fin 1))) (P2 (ix2 p (0 : Fin 1))) (P1 (ix2 p k)) := by
  show (logistic (addf (mulf (broadcastTo S64x16384 P0 broadcasts_S64x1_S64x16384) P1) (broadcastTo S64x16384 P2 broadcasts_S64x1_S64x16384))) (ix2 p k) * (mulf (logistic (addf (mulf (broadcastTo S64x16384 P0 broadcasts_S64x1_S64x16384) P1) (broadcastTo S64x16384 P2 broadcasts_S64x1_S64x16384))) (subf (broadcast S64x16384 (Scalar.ofBits .f32 0x3F800000#32)) (logistic (addf (mulf (broadcastTo S64x16384 P0 broadcasts_S64x1_S64x16384) P1) (broadcastTo S64x16384 P2 broadcasts_S64x1_S64x16384))))) (ix2 p k) = _
  rw [s_block, sp_block]

end Block

/-- A lane sum of a `[64, 16384]` block, at row `p`, is the sum over the row. -/
theorem laneSum (src : FVec Ideal S64x16384 .f32) (p : Fin 64) :
    multiReduction .add [1] S64 src 0x00000000#32 reduces_S64x16384_S64 (.inl rfl) rfl (ix1 p) = ∑ k : Fin 16384, src (ix2 p k) :=
  (Ideal.multiReduction_add_single src 0x00000000#32 reduces_S64x16384_S64 (.inl rfl) rfl (ix1 p)).trans
    (Finset.sum_congr rfl fun k _ => congrArg src (by coords2))

/-- So the lane sum times `2⁻¹⁴` is the row's mean; the summands may be restated entry by entry. -/
theorem mean_block (src : FVec Ideal S64x16384 .f32) (g : Fin 16384 → EReal) (p : Fin 64) (h : ∀ k, src (ix2 p k) = g k) :
    FloatOps.mulf (multiReduction .add [1] S64 src 0x00000000#32 reduces_S64x16384_S64 (.inl rfl) rfl (ix1 p))
      (Scalar.ofBits .f32 0x38800000#32) = mean g :=
  (congrArg (· * Ideal.ofBits .f32 0x38800000#32) (laneSum src p)).trans (mean_of' _ _ h)

/-! ## What one grid point stores -/

/-- Entry `(p, u)` of the first stored block, as a function of the loaded blocks, is `gradA` of their row `p`. -/
theorem gradA_block (P0 : FVec Ideal S64x1 .f32) (P1 : FVec Ideal S64x16384 .f32) (P2 P3 P4 : FVec Ideal S64x1 .f32) (p : Fin 64) (u : Fin 1) :
    Value.E5 (F := Ideal) P0 P1 P2 P3 P4 (ix2 p u)
      = gradA (fun k => P1 (ix2 p k)) (P0 (ix2 p (0 : Fin 1))) (P2 (ix2 p (0 : Fin 1))) (P3 (ix2 p (0 : Fin 1))) (P4 (ix2 p (0 : Fin 1))) := by
  have i0 : Value.ix5_0 (ix2 p u) = ix1 p := by coords1
  have i1 : Value.ix5_1 (ix2 p u) = ix2 p (0 : Fin 1) := by coords2
  have i2 : Value.ix5_2 (ix2 p u) = ix1 p := by coords1
  have i3 : Value.ix5_3 (ix2 p u) = ix1 p := by coords1
  have i4 : Value.ix5_4 (ix2 p u) = ix1 p := by coords1
  have i5 : Value.ix5_5 (ix2 p u) = ix1 p := by coords1
  have i6 : Value.ix5_6 (ix2 p u) = ix2 p (0 : Fin 1) := by coords2
  have i7 : Value.ix5_7 (ix2 p u) = ix1 p := by coords1
  have i8 : Value.ix5_8 (ix2 p u) = ix1 p := by coords1
  have i9 : Value.ix5_9 (ix2 p u) = ix1 p := by coords1
  dsimp only [Value.E5]
  rw [i0, i1, i2, i3, i4, i5, i6, i7, i8, i9]
  rw [mean_block _ _ p (fun k => s_block P0 P2 P1 p k), mean_block _ _ p (fun k => d_block P0 P2 P1 p k),
    mean_block _ _ p (fun k => ss_block P0 P2 P1 p k), mean_block _ _ p (fun k => sd_block P0 P2 P1 p k)]
  rfl

/-- Entry `(p, u)` of the second stored block is `gradB` of row `p`. -/
theorem gradB_block (P0 : FVec Ideal S64x1 .f32) (P1 : FVec Ideal S64x16384 .f32) (P2 P3 P4 : FVec Ideal S64x1 .f32) (p : Fin 64) (u : Fin 1) :
    Value.E6 (F := Ideal) P0 P1 P2 P3 P4 (ix2 p u)
      = gradB (fun k => P1 (ix2 p k)) (P0 (ix2 p (0 : Fin 1))) (P2 (ix2 p (0 : Fin 1))) (P3 (ix2 p (0 : Fin 1))) (P4 (ix2 p (0 : Fin 1))) := by
  have i0 : Value.ix6_0 (ix2 p u) = ix1 p := by coords1
  have i1 : Value.ix6_1 (ix2 p u) = ix2 p (0 : Fin 1) := by coords2
  have i2 : Value.ix6_2 (ix2 p u) = ix1 p := by coords1
  have i3 : Value.ix6_3 (ix2 p u) = ix1 p := by coords1
  have i4 : Value.ix6_4 (ix2 p u) = ix1 p := by coords1
  have i5 : Value.ix6_5 (ix2 p u) = ix1 p := by coords1
  have i6 : Value.ix6_6 (ix2 p u) = ix2 p (0 : Fin 1) := by coords2
  have i7 : Value.ix6_7 (ix2 p u) = ix1 p := by coords1
  have i8 : Value.ix6_8 (ix2 p u) = ix1 p := by coords1
  have i9 : Value.ix6_9 (ix2 p u) = ix1 p := by coords1
  dsimp only [Value.E6]
  rw [i0, i1, i2, i3, i4, i5, i6, i7, i8, i9]
  rw [mean_block _ _ p (fun k => s_block P0 P2 P1 p k), mean_block _ _ p (fun k => sp_block P0 P2 P1 p k),
    mean_block _ _ p (fun k => ss_block P0 P2 P1 p k), mean_block _ _ p (fun k => ssp_block P0 P2 P1 p k)]
  rfl

/-- The zero offset of a load or store of a whole block. -/
theorem hz : (![0, 0] : Fin 2 → Nat) = fun _ => 0 := funext fun a => by fin_cases a <;> rfl

/-- The row of a block's index. -/
abbrev brow (y : S64x1.Idx) : Fin 64 := ⟨(y 0).val, (y 0).isLt⟩

/-- What the body leaves in the first output block, from the five input blocks: at `y`, `gradA` of their row. -/
theorem outA_at (x0 : Vec Ideal S64x16384 .f32) (x1 x2 x3 x4 : Vec Ideal S64x1 .f32) (y : S64x1.Idx) :
    out0_5 x0 x1 x2 x3 x4 y = gradA (fun k => x0 (ix2 (brow y) k)) (x1 (ix2 (brow y) (0 : Fin 1))) (x2 (ix2 (brow y) (0 : Fin 1)))
      (x3 (ix2 (brow y) (0 : Fin 1))) (x4 (ix2 (brow y) (0 : Fin 1))) := by
  obtain ⟨p, u, rfl⟩ : ∃ (p : Fin 64) (u : Fin 1), y = ix2 p u := ⟨y 0, y 1, eq_ix2 y⟩
  unfold out0_5
  simp only [View.ld_unit_zero (S := S64x16384) hz, View.ld_unit_zero (S := S64x1) hz]
  exact (Value.canon5_eq x1 x0 x2 x3 x4 (ix2 p u)).trans (gradA_block x1 x0 x2 x3 x4 p u)

/-- What the body leaves in the second output block: at `y`, `gradB` of the input blocks' row. -/
theorem outB_at (x0 : Vec Ideal S64x16384 .f32) (x1 x2 x3 x4 : Vec Ideal S64x1 .f32) (y : S64x1.Idx) :
    out0_6 x0 x1 x2 x3 x4 y = gradB (fun k => x0 (ix2 (brow y) k)) (x1 (ix2 (brow y) (0 : Fin 1))) (x2 (ix2 (brow y) (0 : Fin 1)))
      (x3 (ix2 (brow y) (0 : Fin 1))) (x4 (ix2 (brow y) (0 : Fin 1))) := by
  obtain ⟨p, u, rfl⟩ : ∃ (p : Fin 64) (u : Fin 1), y = ix2 p u := ⟨y 0, y 1, eq_ix2 y⟩
  unfold out0_6
  simp only [View.ld_unit_zero (S := S64x16384) hz, View.ld_unit_zero (S := S64x1) hz]
  exact (Value.canon6_eq x1 x0 x2 x3 x4 (ix2 p u)).trans (gradB_block x1 x0 x2 x3 x4 p u)

/-! ## From the blocks to the arrays -/

section Run

variable (m : (ℓ : Loc nD τ sig) → Buf (Elt Ideal) ℓ) (ρ : Dev nD → PrngReg)

/-- The seven index maps, decided over the 64 grid points: every window's block at point `t` is block `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back to the first result is block `t` of `GA` of the argument arrays: row `p` of every block
    at point `t` is row `64 t + p` of its array. -/
theorem flushedA_eq (c : Dev nD) (t : Fin cfg0.N) :
    (dats m 0 c).flushed 5 t = ((cfg0.win 5).blk t).view.read (Elt Ideal)
      (GA (V m c main_arg0) (V m c main_arg1) (V m c main_arg2) (V m c main_arg3) (V m c main_arg4)) := by
  rw [Value.flushed5]
  obtain ⟨e00, e01, e10, e11, e20, e21, e30, e31, e40, e41, e50, e51, e60, e61⟩ := idx_facts t
  funext y
  have hy0 : (y 0).val < 64 := (y 0).isLt
  have hy1 : (y 1).val < 1 := (y 1).isLt
  show out0_5 (iblk m c 0 t) (iblk m c 1 t) (iblk m c 2 t) (iblk m c 3 t) (iblk m c 4 t) y
    = GA (V m c main_arg0) (V m c main_arg1) (V m c main_arg2) (V m c main_arg3) (V m c main_arg4) (((cfg0.win 5).blk t).view.emb y)
  refine (outA_at _ _ _ _ _ y).trans ?_
  unfold GA
  refine gradA_congr ?_ ?_ ?_ ?_ ?_
  · funext k
    show V m c main_arg0 (((cfg0.win 0).blk t).view.emb (ix2 (brow y) k)) = V m c main_arg0 (ix2 (row (((cfg0.win 5).blk t).view.emb y)) k)
    refine congrArg _ (funext fun a => Fin.ext ?_)
    match a with
    | ⟨0, _⟩ => show win0_0.index t (0 : Fin 2) * 64 + 1 * (y 0).val = win0_5.index t (0 : Fin 2) * 64 + 1 * (y 0).val; omega
    | ⟨1, _⟩ => show win0_0.index t (1 : Fin 2) * 16384 + 1 * k.val = k.val; omega
  · show V m c main_arg1 (((cfg0.win 1).blk t).view.emb (ix2 (brow y) (0 : Fin 1))) = V m c main_arg1 (ix2 (row (((cfg0.win 5).blk t).view.emb y)) (0 : Fin 1))
    refine congrArg _ (funext fun a => Fin.ext ?_)
    match a with
    | ⟨0, _⟩ => show win0_1.index t (0 : Fin 2) * 64 + 1 * (y 0).val = win0_5.index t (0 : Fin 2) * 64 + 1 * (y 0).val; omega
    | ⟨1, _⟩ => show win0_1.index t (1 : Fin 2) * 1 + 1 * 0 = 0; omega
  · show V m c main_arg2 (((cfg0.win 2).blk t).view.emb (ix2 (brow y) (0 : Fin 1))) = V m c main_arg2 (ix2 (row (((cfg0.win 5).blk t).view.emb y)) (0 : Fin 1))
    refine congrArg _ (funext fun a => Fin.ext ?_)
    match a with
    | ⟨0, _⟩ => show win0_2.index t (0 : Fin 2) * 64 + 1 * (y 0).val = win0_5.index t (0 : Fin 2) * 64 + 1 * (y 0).val; omega
    | ⟨1, _⟩ => show win0_2.index t (1 : Fin 2) * 1 + 1 * 0 = 0; omega
  · show V m c main_arg3 (((cfg0.win 3).blk t).view.emb (ix2 (brow y) (0 : Fin 1))) = V m c main_arg3 (ix2 (row (((cfg0.win 5).blk t).view.emb y)) (0 : Fin 1))
    refine congrArg _ (funext fun a => Fin.ext ?_)
    match a with
    | ⟨0, _⟩ => show win0_3.index t (0 : Fin 2) * 64 + 1 * (y 0).val = win0_5.index t (0 : Fin 2) * 64 + 1 * (y 0).val; omega
    | ⟨1, _⟩ => show win0_3.index t (1 : Fin 2) * 1 + 1 * 0 = 0; omega
  · show V m c main_arg4 (((cfg0.win 4).blk t).view.emb (ix2 (brow y) (0 : Fin 1))) = V m c main_arg4 (ix2 (row (((cfg0.win 5).blk t).view.emb y)) (0 : Fin 1))
    refine congrArg _ (funext fun a => Fin.ext ?_)
    match a with
    | ⟨0, _⟩ => show win0_4.index t (0 : Fin 2) * 64 + 1 * (y 0).val = win0_5.index t (0 : Fin 2) * 64 + 1 * (y 0).val; omega
    | ⟨1, _⟩ => show win0_4.index t (1 : Fin 2) * 1 + 1 * 0 = 0; omega

/-- What point `t` writes back to the second result is block `t` of `GB` of the argument arrays: row `p` of every block
    at point `t` is row `64 t + p` of its array. -/
theorem flushedB_eq (c : Dev nD) (t : Fin cfg0.N) :
    (dats m 0 c).flushed 6 t = ((cfg0.win 6).blk t).view.read (Elt Ideal)
      (GB (V m c main_arg0) (V m c main_arg1) (V m c main_arg2) (V m c main_arg3) (V m c main_arg4)) := by
  rw [Value.flushed6]
  obtain ⟨e00, e01, e10, e11, e20, e21, e30, e31, e40, e41, e50, e51, e60, e61⟩ := idx_facts t
  funext y
  have hy0 : (y 0).val < 64 := (y 0).isLt
  have hy1 : (y 1).val < 1 := (y 1).isLt
  show out0_6 (iblk m c 0 t) (iblk m c 1 t) (iblk m c 2 t) (iblk m c 3 t) (iblk m c 4 t) y
    = GB (V m c main_arg0) (V m c main_arg1) (V m c main_arg2) (V m c main_arg3) (V m c main_arg4) (((cfg0.win 6).blk t).view.emb y)
  refine (outB_at _ _ _ _ _ y).trans ?_
  unfold GB
  refine gradB_congr ?_ ?_ ?_ ?_ ?_
  · funext k
    show V m c main_arg0 (((cfg0.win 0).blk t).view.emb (ix2 (brow y) k)) = V m c main_arg0 (ix2 (row (((cfg0.win 6).blk t).view.emb y)) k)
    refine congrArg _ (funext fun a => Fin.ext ?_)
    match a with
    | ⟨0, _⟩ => show win0_0.index t (0 : Fin 2) * 64 + 1 * (y 0).val = win0_6.index t (0 : Fin 2) * 64 + 1 * (y 0).val; omega
    | ⟨1, _⟩ => show win0_0.index t (1 : Fin 2) * 16384 + 1 * k.val = k.val; omega
  · show V m c main_arg1 (((cfg0.win 1).blk t).view.emb (ix2 (brow y) (0 : Fin 1))) = V m c main_arg1 (ix2 (row (((cfg0.win 6).blk t).view.emb y)) (0 : Fin 1))
    refine congrArg _ (funext fun a => Fin.ext ?_)
    match a with
    | ⟨0, _⟩ => show win0_1.index t (0 : Fin 2) * 64 + 1 * (y 0).val = win0_6.index t (0 : Fin 2) * 64 + 1 * (y 0).val; omega
    | ⟨1, _⟩ => show win0_1.index t (1 : Fin 2) * 1 + 1 * 0 = 0; omega
  · show V m c main_arg2 (((cfg0.win 2).blk t).view.emb (ix2 (brow y) (0 : Fin 1))) = V m c main_arg2 (ix2 (row (((cfg0.win 6).blk t).view.emb y)) (0 : Fin 1))
    refine congrArg _ (funext fun a => Fin.ext ?_)
    match a with
    | ⟨0, _⟩ => show win0_2.index t (0 : Fin 2) * 64 + 1 * (y 0).val = win0_6.index t (0 : Fin 2) * 64 + 1 * (y 0).val; omega
    | ⟨1, _⟩ => show win0_2.index t (1 : Fin 2) * 1 + 1 * 0 = 0; omega
  · show V m c main_arg3 (((cfg0.win 3).blk t).view.emb (ix2 (brow y) (0 : Fin 1))) = V m c main_arg3 (ix2 (row (((cfg0.win 6).blk t).view.emb y)) (0 : Fin 1))
    refine congrArg _ (funext fun a => Fin.ext ?_)
    match a with
    | ⟨0, _⟩ => show win0_3.index t (0 : Fin 2) * 64 + 1 * (y 0).val = win0_6.index t (0 : Fin 2) * 64 + 1 * (y 0).val; omega
    | ⟨1, _⟩ => show win0_3.index t (1 : Fin 2) * 1 + 1 * 0 = 0; omega
  · show V m c main_arg4 (((cfg0.win 4).blk t).view.emb (ix2 (brow y) (0 : Fin 1))) = V m c main_arg4 (ix2 (row (((cfg0.win 6).blk t).view.emb y)) (0 : Fin 1))
    refine congrArg _ (funext fun a => Fin.ext ?_)
    match a with
    | ⟨0, _⟩ => show win0_4.index t (0 : Fin 2) * 64 + 1 * (y 0).val = win0_6.index t (0 : Fin 2) * 64 + 1 * (y 0).val; omega
    | ⟨1, _⟩ => show win0_4.index t (1 : Fin 2) * 1 + 1 * 0 = 0; omega

/-- An index of the first result array is in point `t`'s block iff each coordinate is in the block's range on its axis. -/
theorem mem_blk5 (t : Fin cfg0.N) (i : S4096x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v0_0).slice (win0_5.rect t)).set ↔ _
  rw [View.set_slice_whole, Rect.mem_set_unit]
  exact Iff.rfl

/-- Row `r` of the first result array is written by point `r / 64`: the 64 blocks of 64 rows tile the 4096 rows. -/
theorem coverA (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 64 := N_0
  have hlt : (i 0).val / 64 < cfg0.N := by rw [hN]; omega
  obtain ⟨e00, e01, e10, e11, e20, e21, e30, e31, e40, e41, e50, e51, e60, e61⟩ := idx_facts ⟨(i 0).val / 64, hlt⟩
  have e50' : win0_5.index ⟨(i 0).val / 64, hlt⟩ (0 : Fin 2) = (i 0).val / 64 := e50
  refine ⟨⟨(i 0).val / 64, hlt⟩, flush0_5 _, ?_⟩
  rw [mem_blk5]
  intro a
  match a with
  | ⟨0, _⟩ =>
    show win0_5.index ⟨(i 0).val / 64, hlt⟩ (0 : Fin 2) * 64 ≤ (i 0).val ∧ (i 0).val < win0_5.index ⟨(i 0).val / 64, hlt⟩ (0 : Fin 2) * 64 + 64
    rw [e50']; omega
  | ⟨1, _⟩ =>
    show win0_5.index ⟨(i 0).val / 64, hlt⟩ (1 : Fin 2) * 1 ≤ (i 1).val ∧ (i 1).val < win0_5.index ⟨(i 0).val / 64, hlt⟩ (1 : Fin 2) * 1 + 1
    rw [e51]; omega

/-- An index of the second result array is in point `t`'s block iff each coordinate is in the block's range on its axis. -/
theorem mem_blk6 (t : Fin cfg0.N) (i : S4096x1.Idx) :
    i ∈ ((cfg0.win 6).blk t).view.set ↔ ∀ a : Fin 2, win0_6.index t a * S64x1.size a ≤ (i a).val ∧ (i a).val < win0_6.index t a * S64x1.size a + S64x1.size a := by
  show i ∈ ((View.whole main_v0_1).slice (win0_6.rect t)).set ↔ _
  rw [View.set_slice_whole, Rect.mem_set_unit]
  exact Iff.rfl

/-- Row `r` of the second result array is written by point `r / 64`: the 64 blocks of 64 rows tile the 4096 rows. -/
theorem coverB (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 64 := N_0
  have hlt : (i 0).val / 64 < cfg0.N := by rw [hN]; omega
  obtain ⟨e00, e01, e10, e11, e20, e21, e30, e31, e40, e41, e50, e51, e60, e61⟩ := idx_facts ⟨(i 0).val / 64, hlt⟩
  have e60' : win0_6.index ⟨(i 0).val / 64, hlt⟩ (0 : Fin 2) = (i 0).val / 64 := e60
  refine ⟨⟨(i 0).val / 64, hlt⟩, flush0_6 _, ?_⟩
  rw [mem_blk6]
  intro a
  match a with
  | ⟨0, _⟩ =>
    show win0_6.index ⟨(i 0).val / 64, hlt⟩ (0 : Fin 2) * 64 ≤ (i 0).val ∧ (i 0).val < win0_6.index ⟨(i 0).val / 64, hlt⟩ (0 : Fin 2) * 64 + 64
    rw [e60']; omega
  | ⟨1, _⟩ =>
    show win0_6.index ⟨(i 0).val / 64, hlt⟩ (1 : Fin 2) * 1 ≤ (i 1).val ∧ (i 1).val < win0_6.index ⟨(i 0).val / 64, hlt⟩ (1 : Fin 2) * 1 + 1
    rw [e61]; omega

/-- The first result array after the run is `GA` of the argument arrays. -/
theorem finalA (c : Dev nD) : (dats m 0 c).arrAt 5 cfg0.N
    = GA (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushedA_eq m c t) coverA

/-- The second result array after the run is `GB` of the argument arrays. -/
theorem finalB (c : Dev nD) : (dats m 0 c).arrAt 6 cfg0.N
    = GB (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushedB_eq m c t) coverB

/-- The kernel's run: every weakly fair execution ends with the two result arrays at `GA` and `GB` of the argument
    arrays, and the arguments unchanged. -/
theorem run : θ_run defs (onTc (τ := τ) (main (F := Ideal))) ⟨m, fun _ => 0, ρ⟩ fun r => ∀ c : Dev nD,
      r.2.mem ((c : Thread nD τ).loc main_v0_0)
        = GA (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v0_1)
        = GB (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalA m c), (h c).2.1.trans (finalB m c), (h c).2.2⟩)
    (Value.run_blocks m ρ)

end Run

end Cert.KernelIdeal.KerRows

end
-- ==== Proof.ReferenceRows.lean ====
/-
  The reference computes `GA` and `GB` (Proof/RowMoments.lean).

  The reference program is read one operation at a time. Its entry `(r, k)` of the logistic stage is `s` of row `r`'s
  scalars and of `x (r, k)` — the host spells the logistic function as `1 / (1 + exp (−z))` —, the stages `s'` and `d`
  follow pointwise, each of its six reductions over the columns followed by the quotient by `16384` is the mean of
  the row, and the last operations are the two trees of `gradA` and `gradB` entry by entry.
-/
import proofs.«103779_j5420248727614_2_alg».proof.Proof.Gen.ReferenceIdeal.Read
import proofs.«103779_j5420248727614_2_alg».proof.Proof.RowMoments

noncomputable section

namespace Cert.ReferenceIdeal.RefRows

open Cert.ReferenceIdeal Cert.ReferenceIdeal.Read Idealize.ShloMosaic Idealize.ShloMosaic.ValueIdx Cert.RowMoments

variable (x0 : FVec Ideal S4096x16384 .f32) (x1 x2 x3 x4 : FVec Ideal S4096x1 .f32)

/-- Two indices of a rank-2 shape with the same two coordinates are equal. -/
local macro "coords2" : tactic =>
  `(tactic| (funext a; apply Fin.ext; match a with | ⟨0, _⟩ => rfl | ⟨1, _⟩ => rfl))

/-! ## The three pointwise stages at entry `(r, k)` -/

/-- The logistic stage. -/
theorem s_at (r : Fin 4096) (k : Fin 16384) :
    val_main_v9 (F := Ideal) x0 x1 x2 (ix2 r k) = sg (at0 x1 r) (at0 x2 r) (rowOf x0 r k) := by
  have e0 : idx_main_v0 (ix2 r k) = ix2 r (0 : Fin 1) := by coords2
  have e2 : idx_main_v2 (ix2 r k) = ix2 r (0 : Fin 1) := by coords2
  rw [val_main_v9_apply, val_main_v8_apply, val_main_cst_0_apply, val_main_v7_apply, val_main_v6_apply, val_main_cst_apply,
    val_main_v5_apply, val_main_v4_apply, val_main_v3_apply, val_main_v1_apply, val_main_v0_apply, val_main_v2_apply, e0, e2]
  exact logistic_spelt _

/-- The stage `s · (1 − s)`. -/
theorem sp_at (r : Fin 4096) (k : Fin 16384) :
    val_main_v12 (F := Ideal) x0 x1 x2 (ix2 r k) = sp (at0 x1 r) (at0 x2 r) (rowOf x0 r k) := by
  rw [val_main_v12_apply, val_main_v11_apply, val_main_v10_apply, val_main_cst_1_apply, s_at]
  rfl

/-- The stage `x · s'`. -/
theorem da_at (r : Fin 4096) (k : Fin 16384) :
    val_main_v13 (F := Ideal) x0 x1 x2 (ix2 r k) = da (at0 x1 r) (at0 x2 r) (rowOf x0 r k) := by
  rw [val_main_v13_apply, sp_at]
  rfl

/-! ## The six means at entry `i` of the column -/

/-- The mean of `s`. -/
theorem mean_s (i : S4096x1.Idx) : val_main_v17 (F := Ideal) x0 x1 x2 i
    = mean (fun k => sg (at0 x1 (row i)) (at0 x2 (row i)) (rowOf x0 (row i) k)) := by
  rw [val_main_v17_apply, val_main_v15_apply, val_main_v16_apply, val_main_cst_3_apply, val_main_v14_apply, val_main_cst_2_apply]
  refine mean_of _ _ fun k => ?_
  have e : idx_main_v14 (idx_main_v15 i) k = ix2 (row i) k := by coords2
  rw [e]; exact s_at x0 x1 x2 (row i) k

/-- The mean of `d`. -/
theorem mean_d (i : S4096x1.Idx) : val_main_v22 (F := Ideal) x0 x1 x2 i
    = mean (fun k => da (at0 x1 (row i)) (at0 x2 (row i)) (rowOf x0 (row i) k)) := by
  rw [val_main_v22_apply, val_main_v20_apply, val_main_v21_apply, val_main_cst_5_apply, val_main_v19_apply, val_main_cst_4_apply]
  refine mean_of _ _ fun k => ?_
  have e : idx_main_v19 (idx_main_v20 i) k = ix2 (row i) k := by coords2
  rw [e]; exact da_at x0 x1 x2 (row i) k

/-- The mean of `s'`. -/
theorem mean_sp (i : S4096x1.Idx) : val_main_v26 (F := Ideal) x0 x1 x2 i
    = mean (fun k => sp (at0 x1 (row i)) (at0 x2 (row i)) (rowOf x0 (row i) k)) := by
  rw [val_main_v26_apply, val_main_v24_apply, val_main_v25_apply, val_main_cst_7_apply, val_main_v23_apply, val_main_cst_6_apply]
  refine mean_of _ _ fun k => ?_
  have e : idx_main_v23 (idx_main_v24 i) k = ix2 (row i) k := by coords2
  rw [e]; exact sp_at x0 x1 x2 (row i) k

/-- The mean of `s · s`. -/
theorem mean_ss (i : S4096x1.Idx) : val_main_v31 (F := Ideal) x0 x1 x2 i
    = mean (fun k => sg (at0 x1 (row i)) (at0 x2 (row i)) (rowOf x0 (row i) k) * sg (at0 x1 (row i)) (at0 x2 (row i)) (rowOf x0 (row i) k)) := by
  rw [val_main_v31_apply, val_main_v29_apply, val_main_v30_apply, val_main_cst_9_apply, val_main_v28_apply, val_main_cst_8_apply]
  refine mean_of _ _ fun k => ?_
  have e : idx_main_v28 (idx_main_v29 i) k = ix2 (row i) k := by coords2
  rw [e, val_main_v27_apply, s_at]; rfl

/-- The mean of `s · d`. -/
theorem mean_sd (i : S4096x1.Idx) : val_main_v39 (F := Ideal) x0 x1 x2 i
    = mean (fun k => sg (at0 x1 (row i)) (at0 x2 (row i)) (rowOf x0 (row i) k) * da (at0 x1 (row i)) (at0 x2 (row i)) (rowOf x0 (row i) k)) := by
  rw [val_main_v39_apply, val_main_v37_apply, val_main_v38_apply, val_main_cst_11_apply, val_main_v36_apply, val_main_cst_10_apply]
  refine mean_of _ _ fun k => ?_
  have e : idx_main_v36 (idx_main_v37 i) k = ix2 (row i) k := by coords2
  rw [e, val_main_v35_apply, s_at, da_at]; rfl

/-- The mean of `s · s'`. -/
theorem mean_ssp (i : S4096x1.Idx) : val_main_v48 (F := Ideal) x0 x1 x2 i
    = mean (fun k => sg (at0 x1 (row i)) (at0 x2 (row i)) (rowOf x0 (row i) k) * sp (at0 x1 (row i)) (at0 x2 (row i)) (rowOf x0 (row i) k)) := by
  rw [val_main_v48_apply, val_main_v46_apply, val_main_v47_apply, val_main_cst_14_apply, val_main_v45_apply, val_main_cst_13_apply]
  refine mean_of _ _ fun k => ?_
  have e : idx_main_v45 (idx_main_v46 i) k = ix2 (row i) k := by coords2
  rw [e, val_main_v44_apply, s_at, sp_at]; rfl

/-! ## The two results -/

/-- An index of the column is `(row, 0)`. -/
theorem col_index (i : S4096x1.Idx) : i = ix2 (row i) (0 : Fin 1) := by
  funext a; apply Fin.ext
  match a with
  | ⟨0, _⟩ => rfl
  | ⟨1, _⟩ => show (i 1).val = 0; have h : (i 1).val < 1 := (i 1).isLt; omega

/-- The first result is `GA`. -/
theorem resultA : val_main_v57 (F := Ideal) x0 x1 x2 x3 x4 = GA x0 x1 x2 x3 x4 := by
  funext i
  rw [val_main_v57_apply, val_main_v56_apply, val_main_cst_16_apply, val_main_v55_apply, val_main_v53_apply, val_main_v54_apply,
    val_main_v18_apply, val_main_v34_apply, val_main_v33_apply, val_main_v32_apply, val_main_v43_apply, val_main_v42_apply,
    val_main_cst_12_apply, val_main_v41_apply, val_main_v40_apply, mean_s, mean_d, mean_ss, mean_sd]
  conv_lhs => rw [col_index i]
  rfl

/-- The second result is `GB`. -/
theorem resultB : val_main_v62 (F := Ideal) x0 x1 x2 x3 x4 = GB x0 x1 x2 x3 x4 := by
  funext i
  rw [val_main_v62_apply, val_main_v61_apply, val_main_cst_17_apply, val_main_v60_apply, val_main_v58_apply, val_main_v59_apply,
    val_main_v18_apply, val_main_v34_apply, val_main_v33_apply, val_main_v32_apply, val_main_v52_apply, val_main_v51_apply,
    val_main_cst_15_apply, val_main_v50_apply, val_main_v49_apply, mean_s, mean_sp, mean_ss, mean_ssp]
  conv_lhs => rw [col_index i]
  rfl

end Cert.ReferenceIdeal.RefRows

end
-- ==== Proof.lean ====
/-
  The certificate's proof.

  At the ideal values both programs compute, for every row `r` of `x : [4096, 16384]` and the row's scalars
  `a r, b r, μ r, v r`, the two numbers `gradA` and `gradB` of Proof/RowMoments.lean — the gradients in `a` and `b` of
  `(mean s − μ)² + (var s − v)²` for `s = σ (a · x + b)`, written through six means over the row. The kernel's run
  ends with its two result arrays at `GA` and `GB` of the argument arrays (Proof/KernelRows.lean: one grid point
  handles 64 rows, and an entry of its stored block depends on one row of its loaded blocks); the reference's run ends
  with its two results at the same functions (Proof/ReferenceRows.lean: one operation at a time). The two trees of
  operations are the same; their three different spellings — the logistic function, the quotient by the row's length,
  the start value of a sum — denote the same extended reals, so the precondition is not used.

  The three frame claims are the generated frames of the two kernel programs and the reference's run with its results
  dropped; the idealization rewrote no operation, so there is nothing to preserve.
-/
import proofs.«103779_j5420248727614_2_alg».proof.Defs
import proofs.«103779_j5420248727614_2_alg».proof.Proof.Gen.Kernel
import proofs.«103779_j5420248727614_2_alg».proof.Proof.Gen.Kernel.Skeleton
import proofs.«103779_j5420248727614_2_alg».proof.Proof.Gen.Kernel.Launch
import proofs.«103779_j5420248727614_2_alg».proof.Proof.Gen.Kernel.Points
import proofs.«103779_j5420248727614_2_alg».proof.Proof.Gen.Kernel.Frame
import proofs.«103779_j5420248727614_2_alg».proof.Proof.Gen.KernelIdeal
import proofs.«103779_j5420248727614_2_alg».proof.Proof.Gen.KernelIdeal.Skeleton
import proofs.«103779_j5420248727614_2_alg».proof.Proof.Gen.KernelIdeal.Launch
import proofs.«103779_j5420248727614_2_alg».proof.Proof.Gen.KernelIdeal.Points
import proofs.«103779_j5420248727614_2_alg».proof.Proof.Gen.KernelIdeal.Frame
import proofs.«103779_j5420248727614_2_alg».proof.Proof.Gen.KernelIdeal.Value
import proofs.«103779_j5420248727614_2_alg».proof.Proof.Gen.ReferenceIdeal
import proofs.«103779_j5420248727614_2_alg».proof.Proof.Gen.ReferenceIdeal.Run
import proofs.«103779_j5420248727614_2_alg».proof.Proof.Gen.ReferenceIdeal.Read
import proofs.«103779_j5420248727614_2_alg».proof.Proof.Gen.Pre_finite_inputs
import proofs.«103779_j5420248727614_2_alg».proof.Proof.RowMoments
import proofs.«103779_j5420248727614_2_alg».proof.Proof.KernelRows
import proofs.«103779_j5420248727614_2_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the results `GA` and `GB` of those
    arguments, row by row. -/
theorem algebraic : Cert.algebraic_KernelIdeal_ReferenceIdeal := by
  intro m ρ m' ρ' _ hagree
  refine ⟨_, _, Cert.KernelIdeal.KerRows.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v57_eq, Cert.ReferenceIdeal.RefRows.resultA,
      (hagree c).1, (hagree c).2.1, (hagree c).2.2.1, (hagree c).2.2.2.1, (hagree c).2.2.2.2]
  · rw [(h c).2.1, Cert.ReferenceIdeal.Read.val_main_v62_eq, Cert.ReferenceIdeal.RefRows.resultB,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
